-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S500000 32) (main_arg2 : IVec S500000 32) (main_arg3 : IVec S500000 32) (main_arg4 : IVec S500000 32) (main_arg5 : FVec F S128x128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_v13 main_v16
-- ==== Kernel.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 61
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .f32⟩
  | .hbm, ⟨19, _⟩ => ⟨S100000x128, .f32⟩
  | .hbm, ⟨20, _⟩ => ⟨S500000x1, .i32⟩
  | .hbm, ⟨21, _⟩ => ⟨S100000x128, .f32⟩
  | .hbm, ⟨22, _⟩ => ⟨S_, .f32⟩
  | .hbm, ⟨23, _⟩ => ⟨S500000, .f32⟩
  | .hbm, ⟨24, _⟩ => ⟨S_, .f32⟩
  | .hbm, ⟨25, _⟩ => ⟨S100000, .f32⟩
  | .hbm, ⟨26, _⟩ => ⟨S500000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S500000x128, .f32⟩
  | .hbm, ⟨43, _⟩ => ⟨S_, .f32⟩
  | .hbm, ⟨44, _⟩ => ⟨S100000x128, .f32⟩
  | .hbm, ⟨45, _⟩ => ⟨S500000x1, .i32⟩
  | .hbm, ⟨46, _⟩ => ⟨S100000x128, .f32⟩
  | .hbm, ⟨47, _⟩ => ⟨S_, .f32⟩
  | .hbm, ⟨48, _⟩ => ⟨S500000, .f32⟩
  | .hbm, ⟨49, _⟩ => ⟨S_, .f32⟩
  | .hbm, ⟨50, _⟩ => ⟨S100000, .f32⟩
  | .hbm, ⟨51, _⟩ => ⟨S500000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S100000x128, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S_, .f32⟩
  | .hbm, ⟨21, _⟩ => ⟨S100000x128, .f32⟩
  | .hbm, ⟨22, _⟩ => ⟨S500000x1, .i32⟩
  | .hbm, ⟨23, _⟩ => ⟨S100000x128, .f32⟩
  | .hbm, ⟨24, _⟩ => ⟨S_, .f32⟩
  | .hbm, ⟨25, _⟩ => ⟨S500000, .f32⟩
  | .hbm, ⟨26, _⟩ => ⟨S_, .f32⟩
  | .hbm, ⟨27, _⟩ => ⟨S100000, .f32⟩
  | .hbm, ⟨28, _⟩ => ⟨S500000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S_, .f32⟩
  | .hbm, ⟨48, _⟩ => ⟨S100000x128, .f32⟩
  | .hbm, ⟨49, _⟩ => ⟨S500000x1, .i32⟩
  | .hbm, ⟨50, _⟩ => ⟨S100000x128, .f32⟩
  | .hbm, ⟨51, _⟩ => ⟨S_, .f32⟩
  | .hbm, ⟨52, _⟩ => ⟨S500000, .f32⟩
  | .hbm, ⟨53, _⟩ => ⟨S_, .f32⟩
  | .hbm, ⟨54, _⟩ => ⟨S100000, .f32⟩
  | .hbm, ⟨55, _⟩ => ⟨S500000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S128x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call0_cst : Ref sig .tc := ⟨.hbm, 73, rfl⟩
abbrev main_call0_v0 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  transposes_S128x128_S128x128_1_0 : S128x128.Transposes [1, 0] S128x128
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

class Facts : Prop extends Facts₀ where

variable [Facts]
-- ==== Proof.Finite.lean ====
/-
  From the precondition to real numbers.

  The precondition says, of each float argument, that every entry's absolute value is below +∞ — an `and` over all
  entries, and the `and` of the five arguments' tests. On the extended reals `max x (-x) < ⊤` leaves out exactly the two
  infinities, so every entry of the node array and of the three weight matrices is the image of a real number.
-/
import proofs.«182217_j46222438039793_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Real

open Cert.Pre_finite_inputs Cert.Pre_finite_inputs.Gen Idealize.ShloMosaic Idealize.ShloMosaic.ValueIdx

instance : Subsingleton S_.Idx := ⟨fun a b => funext fun d => d.elim0⟩

/-- An extended real whose absolute value is below the f32 pattern of +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ a : ℝ, x = (a : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe a => exact ⟨a, rfl⟩
  | top => simp at h

/-- An array all of whose entries pass the test is the image of a real array. -/
theorem real_array {s : Shape} (x : FVec Ideal s .f32) (bound : FVec Ideal s .f32)
    (hb : ∀ i, bound i = FloatOps.ofBits (F := Ideal) .f32 0x7F800000#32)
    (h : ∀ i, cmpf .olt (Host.absf x) bound i = 1#1) : ∃ a : s.Idx → ℝ, x = fun i => (a i : EReal) := by
  have h' : ∀ i, ∃ a : ℝ, x i = (a : EReal) := fun i => real_of_abs_lt (x i) (by
    have := h i
    rw [cmpf_apply, hb] at this
    exact this)
  choose a ha using h'
  exact ⟨a, funext ha⟩

/-- THE PRECONDITION, READ: the node array and the three weight matrices hold real numbers. -/
theorem reals_of_pre (x0 : FVec Ideal S100000x128 .f32) (x1 x2 x3 x4 : IVec S500000 32) (x5 x6 x7 : FVec Ideal S128x128 .f32)
    (x8 : FVec Ideal S128 .f32) (h : fn (F := Ideal) x0 x1 x2 x3 x4 x5 x6 x7 x8 = fun _ => 1#1) :
    (∃ a : S100000x128.Idx → ℝ, x0 = fun i => (a i : EReal)) ∧ (∃ a : S128x128.Idx → ℝ, x5 = fun i => (a i : EReal))
      ∧ (∃ a : S128x128.Idx → ℝ, x6 = fun i => (a i : EReal)) ∧ (∃ a : S128x128.Idx → ℝ, x7 = fun i => (a i : EReal)) := by
  have h0 := congrFun h ix0
  dsimp only [fn, fn_part1] at h0
  obtain ⟨h1, -⟩ := IntOp.andi_eq_one.1 h0
  obtain ⟨h2, e7⟩ := IntOp.andi_eq_one.1 h1
  obtain ⟨h3, e6⟩ := IntOp.andi_eq_one.1 h2
  obtain ⟨e0, e5⟩ := IntOp.andi_eq_one.1 h3
  have hbig : ∀ i, broadcastInDim S100000x128 ![] bcast_S_S100000x128 (constant (F := Ideal) S_ .f32 0x7F800000#32) i
      = FloatOps.ofBits (F := Ideal) .f32 0x7F800000#32 := fun _ => rfl
  have hsq : ∀ i, broadcastInDim S128x128 ![] bcast_S_S128x128 (constant (F := Ideal) S_ .f32 0x7F800000#32) i
      = FloatOps.ofBits (F := Ideal) .f32 0x7F800000#32 := fun _ => rfl
  exact ⟨real_array x0 _ hbig (Host.reduce_andi_all _ _ _ _ _ e0),
    real_array x5 _ hsq (Host.reduce_andi_all _ _ _ _ _ e5),
    real_array x6 _ hsq (Host.reduce_andi_all _ _ _ _ _ e6),
    real_array x7 _ hsq (Host.reduce_andi_all _ _ _ _ _ e7)⟩

end Cert.Pre_finite_inputs.Real

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.Payload.lean ====
/-
  The body of the fused kernel, read at one element.

  The body loads a block of `h` and of the two aggregated arrays (4000 rows of 128), the three weight matrices
  (128 × 128, stored output-major) and the bias row, and stores
      max ( (h · Wlᵀ + bias) + (m₁ · W₁ᵀ + m₂ · W₂ᵀ) · ½ , 0 ).
  Each product contracts the block's columns against the columns of the weight matrix (the body transposes the
  weight before the contraction), into a zero accumulator; the change of float format before the contraction is the
  identity on the extended reals. So element `(p, q)` of the stored block is
      max ( (Σ_k h[p,k]·Wl[q,k] + bias[0,q]) + (Σ_k m₁[p,k]·W₁[q,k] + Σ_k m₂[p,k]·W₂[q,k]) · ½ , 0 ).
-/
import proofs.«182217_j46222438039793_2_alg».proof.Proof.Gen.KernelIdeal.Skeleton
import proofs.«182217_j46222438039793_2_alg».proof.Proof.LibMatProd
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Gcn.Dense

/-- The coordinates the contraction record takes from the output index and from the contracted index. -/
theorem lhs0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block times the transpose of an output-major weight matrix, into a zero accumulator, at `(p, q)`: the
    block's row `p` against the weight's row `q`. -/
theorem project_apply (l : FVec Ideal S4000x128 .bf16) (wm : FVec Ideal S128x128 .bf16) (p : Fin 4000) (q : Fin 128) :
    matmul dot_S4000x128_S128x128_S4000x128_1_0_0_1_n_n none l
        (transpose S128x128 [1, 0] wm transposes_S128x128_p1_0_S128x128) (constant S4000x128 .f32 0x00000000#32) (ix2 p q)
      = ∑ k : Fin 128, l (ix2 p k) * wm (ix2 q k) := by
  refine (Ideal.matmul_constant_zero_apply _ none l _ (ix2 p q)).trans ?_
  refine (sum_contr_eq_prod dot_S4000x128_S128x128_S4000x128_1_0_0_1_n_n rfl rfl lhs0 lhs1 rhs0 rhs1 l _ (ix2 p q)).trans ?_
  unfold prod
  refine Finset.sum_congr rfl fun k _ => ?_
  refine congrArg (l (ix2 p k) * ·) ?_
  exact transpose_apply [1, 0] wm transposes_S128x128_p1_0_S128x128 (ix2 k q) (ix2 q k) (fun b => match b with
    | ⟨0, _⟩ => rfl
    | ⟨1, _⟩ => rfl)

/-- THE STORED BLOCK AT `(p, q)`. -/
theorem pay_apply (v0 v2 v5 : Vec Ideal S4000x128 .f32) (v8 v10 v12 : Vec Ideal S128x128 .f32) (v16 : Vec Ideal S1x128 .f32)
    (p : Fin 4000) (q : Fin 128) :
    k0_pay1 (F := Ideal) v0 v2 v5 v8 v10 v12 v16 (ix2 p q)
      = max (((∑ k : Fin 128, v0 (ix2 p k) * v12 (ix2 q k)) + v16 (ix2 (0 : Fin 1) q))
          + ((∑ k : Fin 128, v2 (ix2 p k) * v8 (ix2 q k)) + (∑ k : Fin 128, v5 (ix2 p k) * v10 (ix2 q k)))
            * Ideal.ofBits .f32 0x3F000000#32) (Ideal.ofBits .f32 0x00000000#32) := by
  unfold k0_pay1
  rw [shapeCast_self, shapeCast_self, shapeCast_self]
  show max ((matmul (F := Ideal) dot_S4000x128_S128x128_S4000x128_1_0_0_1_n_n none (truncf .bf16 v0 bitsLt_bf16_f32)
        (transpose S128x128 [1, 0] (truncf .bf16 v12 bitsLt_bf16_f32) transposes_S128x128_p1_0_S128x128) (constant (F := Ideal) S4000x128 .f32 0x00000000#32) (ix2 p q)
      + broadcastTo S4000x128 v16 broadcasts_S1x128_S4000x128 (ix2 p q))
      + (matmul (F := Ideal) dot_S4000x128_S128x128_S4000x128_1_0_0_1_n_n none (truncf .bf16 v2 bitsLt_bf16_f32)
        (transpose S128x128 [1, 0] (truncf .bf16 v8 bitsLt_bf16_f32) transposes_S128x128_p1_0_S128x128) (constant S4000x128 .f32 0x00000000#32) (ix2 p q)
        + matmul (F := Ideal) dot_S4000x128_S128x128_S4000x128_1_0_0_1_n_n none (truncf .bf16 v5 bitsLt_bf16_f32)
        (transpose S128x128 [1, 0] (truncf .bf16 v10 bitsLt_bf16_f32) transposes_S128x128_p1_0_S128x128) (constant S4000x128 .f32 0x00000000#32) (ix2 p q))
        * Ideal.ofBits .f32 0x3F000000#32) (Ideal.ofBits .f32 0x00000000#32) = _
  rw [project_apply, project_apply, project_apply, broadcastTo_1b_ab_apply]
  rfl

end Cert.KernelIdeal.Body

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«182217_j46222438039793_2_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.RefMean.lean ====
/-
  The reference layer read at one element, and the law that joins it to the fused kernel.

  The reference projects the node array first (`h · Wᵀ`), gathers the projected rows along the edges' sources,
  adds them into the rows their edges point to, and divides each row by its in-degree clamped below by one.
  The kernel's host side does the same to the UNPROJECTED node array (`rawMean₁`, `rawMean₂` below: the same
  gather, scatter and divisor, applied to any node array) and projects afterwards. With real node features and
  real weights the two agree element by element (the exchange of finite sums of the generic module), so
      Σ_k rawMean(h)[r,k] · W[q,k]  =  the reference's mean of the projected rows at (r,q).
  The reference's result at `(r, q)` is then
      max ( (Σ_k h[r,k]·Wl[q,k] + bias[q]) + (mean₁[r,q] + mean₂[r,q]) · ½ , 0 ).
-/
import proofs.«182217_j46222438039793_2_alg».proof.Proof.Gen.ReferenceIdeal.Read
import proofs.«182217_j46222438039793_2_alg».proof.Proof.LibGraphMean
import Idealize.ShloMosaic.Lib.IdealHost

noncomputable section

namespace Cert.ReferenceIdeal.Mean

open Cert.ReferenceIdeal Cert.ReferenceIdeal.Gen Cert.ReferenceIdeal.Read Idealize.ShloMosaic Idealize.ShloMosaic.ValueIdx
open Cert.GraphMean Cert.ScatterGather

/-- A node array's rows gathered along the first edge type's sources, added into the rows the edges point to and
    divided by the clamped in-degree: the host's operations, of any node array. -/
def rawMean1 (X : (⟨S100000x128, .f32⟩ : BufTy).Contents (Elt Ideal)) (x1 x2 : (⟨S500000, .i32⟩ : BufTy).Contents (Elt Ideal)) :
    (⟨S100000x128, .f32⟩ : BufTy).Contents (Elt Ideal) :=
  Host.divf (F := Ideal) (φ := .f32) (Host.scatterAdd (F := Ideal) (φ := .f32) scatter_S100000x128_S500000x1_S500000x128_1_0_0_1 (val_main_v9 (F := Ideal)) (val_main_v10 (F := Ideal) x2)
    (Host.gather gather_S100000x128_S500000x1_S500000x128_1_0_n_n_0_1_1128 X (val_main_v7 (F := Ideal) x1))) (val_main_v19 (F := Ideal) x2)

/-- The same along the second edge type. -/
def rawMean2 (X : (⟨S100000x128, .f32⟩ : BufTy).Contents (Elt Ideal)) (x3 x4 : (⟨S500000, .i32⟩ : BufTy).Contents (Elt Ideal)) :
    (⟨S100000x128, .f32⟩ : BufTy).Contents (Elt Ideal) :=
  Host.divf (F := Ideal) (φ := .f32) (Host.scatterAdd (F := Ideal) (φ := .f32) scatter_S100000x128_S500000x1_S500000x128_1_0_0_1 (val_main_v30 (F := Ideal)) (val_main_v31 (F := Ideal) x4)
    (Host.gather gather_S100000x128_S500000x1_S500000x128_1_0_n_n_0_1_1128 X (val_main_v28 (F := Ideal) x3))) (val_main_v40 (F := Ideal) x4)

/-- The reference's two means are the raw means of the projected node array. -/
theorem v20_eq (x0 : (⟨S100000x128, .f32⟩ : BufTy).Contents (Elt Ideal)) (x1 x2 : (⟨S500000, .i32⟩ : BufTy).Contents (Elt Ideal))
    (x5 : (⟨S128x128, .f32⟩ : BufTy).Contents (Elt Ideal)) :
    val_main_v20 (F := Ideal) x0 x1 x2 x5 = rawMean1 (val_main_v1 (F := Ideal) x0 x5) x1 x2 := rfl
theorem v41_eq (x0 : (⟨S100000x128, .f32⟩ : BufTy).Contents (Elt Ideal)) (x3 x4 : (⟨S500000, .i32⟩ : BufTy).Contents (Elt Ideal))
    (x6 : (⟨S128x128, .f32⟩ : BufTy).Contents (Elt Ideal)) :
    val_main_v41 (F := Ideal) x0 x3 x4 x6 = rawMean2 (val_main_v1 (F := Ideal) x0 x6) x3 x4 := rfl

/-- The projected node array at an index: row `i 0` of the node array against row `i 1` of the (output-major)
    weight matrix. -/
theorem projected_apply (a0 : S100000x128.Idx → ℝ) (a5 : S128x128.Idx → ℝ) :
    val_main_v1 (F := Ideal) (fun i => (a0 i : EReal)) (fun i => (a5 i : EReal))
      = fun i => ∑ k : Fin 128, (a0 (ix2 (i 0) k) : EReal) * (a5 (ix2 (i 1) k) : EReal) := by
  funext i
  rw [val_main_v1_apply]
  refine Finset.sum_congr rfl fun k _ => ?_
  rw [val_main_v0_apply]
  have e1 : lidx_main_v1 i k = ix2 (i 0) k := funext fun a => by
    match a with
    | ⟨0, _⟩ => rfl
    | ⟨1, _⟩ => rfl
  have e2 : idx_main_v0 (ridx_main_v1 i k) = ix2 (i 1) k := funext fun a => by
    match a with
    | ⟨0, _⟩ => rfl
    | ⟨1, _⟩ => rfl
  rw [e1, e2]
  rfl

/-- THE LAW at this layer's shapes: for a zero operand, any edge index arrays, and a divisor that is the non-zero
    real `d r` along row `r`. -/
theorem mean_law (Z : (⟨S100000x128, .f32⟩ : BufTy).Contents (Elt Ideal)) (hZ : Z = fun _ => 0)
    (I1 I2 : (⟨S500000x1, .i32⟩ : BufTy).Contents (Elt Ideal))
    (Dn : (⟨S100000x128, .f32⟩ : BufTy).Contents (Elt Ideal)) (d : Fin 100000 → ℝ) (hd : ∀ r, d r ≠ 0)
    (hDn : ∀ (r : Fin 100000) (k : Fin 128), Dn (ix2 r k) = (d r : EReal))
    (a0 : S100000x128.Idx → ℝ) (a5 : S128x128.Idx → ℝ) (r : Fin 100000) (q : Fin 128) :
    ∑ k : Fin 128, (Host.divf (F := Ideal) (φ := .f32) (Host.scatterAdd (F := Ideal) (φ := .f32) scatter_S100000x128_S500000x1_S500000x128_1_0_0_1 Z I2
        (Host.gather gather_S100000x128_S500000x1_S500000x128_1_0_n_n_0_1_1128 (fun i => (a0 i : EReal)) I1)) Dn) (ix2 r k)
          * (a5 (ix2 q k) : EReal)
      = (Host.divf (F := Ideal) (φ := .f32) (Host.scatterAdd (F := Ideal) (φ := .f32) scatter_S100000x128_S500000x1_S500000x128_1_0_0_1 Z I2
        (Host.gather gather_S100000x128_S500000x1_S500000x128_1_0_n_n_0_1_1128
          (val_main_v1 (F := Ideal) (fun i => (a0 i : EReal)) (fun i => (a5 i : EReal))) I1)) Dn) (ix2 r q) := by
  rw [projected_apply]
  exact mean_project (N := 100000) (M := 500000) (C := 128) (by decide)
    gather_S100000x128_S500000x1_S500000x128_1_0_n_n_0_1_1128_wf scatter_S100000x128_S500000x1_S500000x128_1_0_0_1_wf
    Z hZ I1 I2 Dn d hd hDn a0 a5 r q

end Cert.ReferenceIdeal.Mean

end
-- ==== Proof.RefRead.lean ====
/-
  The reference layer's divisors and its result, read at one element.

  The divisor of row `r` is the number of edges that point to `r`, clamped below by one: the scatter of ones into
  zeros counts them, and the maximum with one keeps the count a non-zero real. With it the law of the raw means
  applies to both edge types, and the reference's result at `(r, q)` is
      max ( (Σ_k h[r,k]·Wl[q,k] + bias[q]) + (mean₁[r,q] + mean₂[r,q]) · ½ , 0 ).
-/
import proofs.«182217_j46222438039793_2_alg».proof.Proof.RefMean

noncomputable section

namespace Cert.ReferenceIdeal.Mean

open Cert.ReferenceIdeal Cert.ReferenceIdeal.Gen Cert.ReferenceIdeal.Read Idealize.ShloMosaic Idealize.ShloMosaic.ValueIdx
open Cert.GraphMean Cert.ScatterGather

/-- The scatters' operands are zero arrays. -/
theorem zeros9 : val_main_v9 (F := Ideal) = fun _ => 0 := by
  funext i; rw [val_main_v9_apply, val_main_cst_apply]; exact Ideal.ofBits_zero_f32
theorem zeros30 : val_main_v30 (F := Ideal) = fun _ => 0 := by
  funext i; rw [val_main_v30_apply, val_main_cst_6_apply]; exact Ideal.ofBits_zero_f32

/-- The first edge type's divisor along row `r`: the in-degree clamped below by one, in every column. -/
theorem divisor1 (x2 : (⟨S500000, .i32⟩ : BufTy).Contents (Elt Ideal)) (r : Fin 100000) (k : Fin 128) :
    val_main_v19 (F := Ideal) x2 (ix2 r k) = (degree (val_main_v14 (F := Ideal) x2) r : EReal) := by
  rw [val_main_v19_apply, val_main_v18_apply, val_main_v17_apply, val_main_v16_apply, val_main_cst_3_apply]
  have hi : idx_main_v18 (idx_main_v19 (ix2 r k)) = ix1 r := funext fun a => by
    match a with
    | ⟨0, _⟩ => rfl
  rw [hi]
  have hz : val_main_v13 (F := Ideal) = fun _ => 0 := by
    funext i; rw [val_main_v13_apply, val_main_cst_2_apply]; exact Ideal.ofBits_zero_f32
  have ho : val_main_v12 (F := Ideal) = fun _ => 1 := by
    funext i; rw [val_main_v12_apply, val_main_cst_1_apply]; exact Ideal.ofBits_one_f32
  have h15 : val_main_v15 (F := Ideal) x2 (ix1 r) = (((landing (val_main_v14 (F := Ideal) x2) r).card : ℝ) : EReal) := by
    unfold val_main_v15
    exact host_count_apply (N := 100000) (M := 500000) scatter_S100000_S500000x1_S500000_n_0_0_1
      scatter_S100000_S500000x1_S500000_n_0_0_1_wf rfl (val_main_v13 (F := Ideal)) hz (val_main_v14 (F := Ideal) x2) (val_main_v12 (F := Ideal)) ho r
  rw [h15]
  show max _ (Ideal.ofBits .f32 0x3F800000#32) = _
  rw [Ideal.ofBits_one_f32]
  exact max_count_one _ r

/-- The second edge type's divisor. -/
theorem divisor2 (x4 : (⟨S500000, .i32⟩ : BufTy).Contents (Elt Ideal)) (r : Fin 100000) (k : Fin 128) :
    val_main_v40 (F := Ideal) x4 (ix2 r k) = (degree (val_main_v35 (F := Ideal) x4) r : EReal) := by
  rw [val_main_v40_apply, val_main_v39_apply, val_main_v38_apply, val_main_v37_apply, val_main_cst_9_apply]
  have hi : idx_main_v39 (idx_main_v40 (ix2 r k)) = ix1 r := funext fun a => by
    match a with
    | ⟨0, _⟩ => rfl
  rw [hi]
  have hz : val_main_v34 (F := Ideal) = fun _ => 0 := by
    funext i; rw [val_main_v34_apply, val_main_cst_8_apply]; exact Ideal.ofBits_zero_f32
  have ho : val_main_v33 (F := Ideal) = fun _ => 1 := by
    funext i; rw [val_main_v33_apply, val_main_cst_7_apply]; exact Ideal.ofBits_one_f32
  have h36 : val_main_v36 (F := Ideal) x4 (ix1 r) = (((landing (val_main_v35 (F := Ideal) x4) r).card : ℝ) : EReal) := by
    unfold val_main_v36
    exact host_count_apply (N := 100000) (M := 500000) scatter_S100000_S500000x1_S500000_n_0_0_1
      scatter_S100000_S500000x1_S500000_n_0_0_1_wf rfl (val_main_v34 (F := Ideal)) hz (val_main_v35 (F := Ideal) x4) (val_main_v33 (F := Ideal)) ho r
  rw [h36]
  show max _ (Ideal.ofBits .f32 0x3F800000#32) = _
  rw [Ideal.ofBits_one_f32]
  exact max_count_one _ r

/-- Projecting the raw mean of real node features by a real weight matrix is the reference's mean of the
    projected rows: first edge type, -/
theorem project_rawMean1 (a0 : S100000x128.Idx → ℝ) (a5 : S128x128.Idx → ℝ) (x1 x2 : (⟨S500000, .i32⟩ : BufTy).Contents (Elt Ideal))
    (r : Fin 100000) (q : Fin 128) :
    ∑ k : Fin 128, rawMean1 (fun i => (a0 i : EReal)) x1 x2 (ix2 r k) * (a5 (ix2 q k) : EReal)
      = val_main_v20 (F := Ideal) (fun i => (a0 i : EReal)) x1 x2 (fun i => (a5 i : EReal)) (ix2 r q) := by
  rw [v20_eq]
  exact mean_law _ zeros9 _ _ _ (degree (val_main_v14 (F := Ideal) x2)) (degree_ne_zero _) (divisor1 x2) a0 a5 r q

/-- and second. -/
theorem project_rawMean2 (a0 : S100000x128.Idx → ℝ) (a6 : S128x128.Idx → ℝ) (x3 x4 : (⟨S500000, .i32⟩ : BufTy).Contents (Elt Ideal))
    (r : Fin 100000) (q : Fin 128) :
    ∑ k : Fin 128, rawMean2 (fun i => (a0 i : EReal)) x3 x4 (ix2 r k) * (a6 (ix2 q k) : EReal)
      = val_main_v41 (F := Ideal) (fun i => (a0 i : EReal)) x3 x4 (fun i => (a6 i : EReal)) (ix2 r q) := by
  rw [v41_eq]
  exact mean_law _ zeros30 _ _ _ (degree (val_main_v35 (F := Ideal) x4)) (degree_ne_zero _) (divisor2 x4) a0 a6 r q

/-- THE REFERENCE'S RESULT AT `(r, q)`. -/
theorem ref_apply (x0 : (⟨S100000x128, .f32⟩ : BufTy).Contents (Elt Ideal)) (x1 x2 x3 x4 : (⟨S500000, .i32⟩ : BufTy).Contents (Elt Ideal))
    (x5 x6 x7 : (⟨S128x128, .f32⟩ : BufTy).Contents (Elt Ideal)) (x8 : (⟨S128, .f32⟩ : BufTy).Contents (Elt Ideal))
    (r : Fin 100000) (q : Fin 128) :
    val_main_v51 (F := Ideal) x0 x1 x2 x3 x4 x5 x6 x7 x8 (ix2 r q)
      = max (((∑ k : Fin 128, x0 (ix2 r k) * x7 (ix2 q k)) + x8 (ix1 q))
          + (val_main_v20 (F := Ideal) x0 x1 x2 x5 (ix2 r q) + val_main_v41 (F := Ideal) x0 x3 x4 x6 (ix2 r q))
            * Ideal.ofBits .f32 0x3F000000#32) (Ideal.ofBits .f32 0x00000000#32) := by
  rw [val_main_v51_apply, val_main_v50_apply, val_main_v49_apply, val_main_v46_apply, val_main_v48_apply, val_main_v47_apply,
    val_main_v44_apply, val_main_v42_apply, val_main_v43_apply, val_main_cst_10_apply, val_main_call0_v0_apply,
    val_main_call0_cst_apply]
  have e1 : ∀ k : Fin 128, lidx_main_v46 (ix2 r q) k = ix2 r k := fun k => funext fun a => by
    match a with
    | ⟨0, _⟩ => rfl
    | ⟨1, _⟩ => rfl
  have e2 : ∀ k : Fin 128, idx_main_v45 (ridx_main_v46 (ix2 r q) k) = ix2 q k := fun k => funext fun a => by
    match a with
    | ⟨0, _⟩ => rfl
    | ⟨1, _⟩ => rfl
  have e3 : idx_main_v47 (idx_main_v48 (ix2 r q)) = ix1 q := funext fun a => by
    match a with
    | ⟨0, _⟩ => rfl
  simp only [val_main_v45_apply, e1, e2, e3, Ideal.maximumf_def, Ideal.addf_def, Ideal.mulf_def, Ideal.ofBits_def]

/-- THE TWO SIDES JOINED. With real node features and real weights, the kernel's arrangement — the node array and the
    two raw means each projected by its weight matrix, the bias added, the halves summed, the maximum with zero —
    is the reference's result at `(r, q)`. -/
theorem join (a0 : S100000x128.Idx → ℝ) (a5 a6 a7 : S128x128.Idx → ℝ) (x1 x2 x3 x4 : (⟨S500000, .i32⟩ : BufTy).Contents (Elt Ideal))
    (x8 : (⟨S128, .f32⟩ : BufTy).Contents (Elt Ideal)) (r : Fin 100000) (q : Fin 128) :
    max (((∑ k : Fin 128, (a0 (ix2 r k) : EReal) * (a7 (ix2 q k) : EReal)) + x8 (ix1 q))
        + ((∑ k : Fin 128, rawMean1 (fun i => (a0 i : EReal)) x1 x2 (ix2 r k) * (a5 (ix2 q k) : EReal))
          + (∑ k : Fin 128, rawMean2 (fun i => (a0 i : EReal)) x3 x4 (ix2 r k) * (a6 (ix2 q k) : EReal)))
          * Ideal.ofBits .f32 0x3F000000#32) (Ideal.ofBits .f32 0x00000000#32)
      = val_main_v51 (F := Ideal) (fun i => (a0 i : EReal)) x1 x2 x3 x4 (fun i => (a5 i : EReal)) (fun i => (a6 i : EReal))
          (fun i => (a7 i : EReal)) x8 (ix2 r q) := by
  rw [ref_apply, project_rawMean1, project_rawMean2]

end Cert.ReferenceIdeal.Mean

end
-- ==== Proof.HostArrays.lean ====
/-
  The arrays the fused kernel's windows find when the region is entered.

  Before the region the host gathers the rows of `h` along each edge type's sources, adds them into the rows the
  edges point to, divides by the clamped in-degree, and reshapes the bias to a row. These are the same host
  operations the reference applies to its projected node array, here applied to `h` itself: the two aggregated
  arrays are the raw means of `h`, and the bias row holds the bias.
-/
import proofs.«182217_j46222438039793_2_alg».proof.Proof.Gen.KernelIdeal.Frame
import proofs.«182217_j46222438039793_2_alg».proof.Proof.RefMean
import Idealize.ShloMosaic.Lib.StableHlo.Run
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.ReferenceIdeal.Mean

variable (m : (ℓ : Loc nD τ sig) → Buf (Elt Ideal) ℓ)

/-- The first aggregated array is the raw mean of `h` along the first edge type. -/
theorem raw1_eq (c : Dev nD) :
    (V m c main_v18 : S100000x128.Idx → EReal)
      = rawMean1 (m ((c : Thread nD τ).loc main_arg0)) (m ((c : Thread nD τ).loc main_arg1)) (m ((c : Thread nD τ).loc main_arg2)) := by
  dsimp only [Gen.V, Gen.hostOps0]
  after_results_simp
  rfl

/-- The second aggregated array is the raw mean of `h` along the second edge type. -/
theorem raw2_eq (c : Dev nD) :
    (V m c main_v37 : S100000x128.Idx → EReal)
      = rawMean2 (m ((c : Thread nD τ).loc main_arg0)) (m ((c : Thread nD τ).loc main_arg3)) (m ((c : Thread nD τ).loc main_arg4)) := by
  dsimp only [Gen.V, Gen.hostOps0]
  after_results_simp
  rfl

/-- The bias row at `(0, q)` is the bias at `q`. -/
theorem bias_apply (c : Dev nD) (q : Fin 128) :
    (V m c main_v38 : S1x128.Idx → EReal) (ix2 (0 : Fin 1) q) = m ((c : Thread nD τ).loc main_arg8) (ix1 q) := by
  have e : (V m c main_v38 : S1x128.Idx → EReal) = shapeCast S1x128 (m ((c : Thread nD τ).loc main_arg8)) shapeCasts_S128_S1x128 := by
    dsimp only [Gen.V, Gen.hostOps0]
    after_results_simp
    rfl
  rw [e]
  exact shapeCast_apply _ shapeCasts_S128_S1x128 (ix2 (0 : Fin 1) q) (ix1 q) (by
    rw [Shape.rowMajor_val_two, Shape.rowMajor_val_one]
    show q.val = 0 * 128 + q.val
    omega)

end Cert.KernelIdeal.Entry

end
-- ==== Proof.BlockReads.lean ====
/-
  The blocks the fused kernel's windows stage, read through the windows.

  Grid point `t` of 25 stages rows `4000·t … 4000·t + 3999` of `h` and of the two aggregated arrays, and the three
  weight matrices and the bias row whole. An element `(p, k)` of a staged row block is the array's element
  `(4000·t + p, k)`; an element of a staged weight matrix or of the bias row is the array's own.
-/
import proofs.«182217_j46222438039793_2_alg».proof.Proof.Gen.KernelIdeal.Value
import proofs.«182217_j46222438039793_2_alg».proof.Proof.HostArrays

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Entry Cert.ReferenceIdeal.Mean

variable (m : (ℓ : Loc nD τ sig) → Buf (Elt Ideal) ℓ) (ρ : Dev nD → PrngReg)

theorem hz : (![0, 0] : Fin 2 → Nat) = fun _ => 0 := funext fun a => by fin_cases a <;> rfl

/-- The layer's result as ONE function of the argument arrays. -/
def result (c : Dev nD) : S100000x128.Idx → EReal :=
  Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The node array and the three weight matrices hold real numbers, on every core. -/
def RealArgs : Prop := ∀ c : Dev nD,
  (∃ a : S100000x128.Idx → ℝ, m ((c : Thread nD τ).loc main_arg0) = fun i => (a i : EReal))
  ∧ (∃ a : S128x128.Idx → ℝ, m ((c : Thread nD τ).loc main_arg5) = fun i => (a i : EReal))
  ∧ (∃ a : S128x128.Idx → ℝ, m ((c : Thread nD τ).loc main_arg6) = fun i => (a i : EReal))
  ∧ (∃ a : S128x128.Idx → ℝ, m ((c : Thread nD τ).loc main_arg7) = fun i => (a i : EReal))

/-- The printed index maps over the 25 grid points: the row windows are at block `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## A window's block of ANY array, read at an element -/

section Rows
variable (t : Fin cfg0.N) (p : Fin 4000) (r : Fin 100000) (hr : r.val = t.val * 4000 + p.val)
include hr

theorem rows0_read (A : S100000x128.Idx → EReal) (k : Fin 128) :
    ((cfg0.win 0).blk t).view.read (Elt Ideal) A (ix2 p k) = A (ix2 r k) := by
  obtain ⟨e0, e1, -⟩ := idx_facts t
  show A (((cfg0.win 0).blk t).view.emb (ix2 p k)) = A (ix2 r k)
  refine congrArg A (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

theorem rows1_read (A : S100000x128.Idx → EReal) (k : Fin 128) :
    ((cfg0.win 1).blk t).view.read (Elt Ideal) A (ix2 p k) = A (ix2 r k) := by
  obtain ⟨-, -, e0, e1, -⟩ := idx_facts t
  show A (((cfg0.win 1).blk t).view.emb (ix2 p k)) = A (ix2 r k)
  refine congrArg A (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

theorem rows2_read (A : S100000x128.Idx → EReal) (k : Fin 128) :
    ((cfg0.win 2).blk t).view.read (Elt Ideal) A (ix2 p k) = A (ix2 r k) := by
  obtain ⟨-, -, -, -, e0, e1, -⟩ := idx_facts t
  show A (((cfg0.win 2).blk t).view.emb (ix2 p k)) = A (ix2 r k)
  refine congrArg A (funext fun a => Fin.ext ?_)
  match a with
  | ⟨0, _⟩ => show win0_2.index t (0 : Fin 2) * 4000 + 1 * p.val = r.val; omega
  | ⟨1, _⟩ => show win0_2.index t (1 : Fin 2) * 128 + 1 * k.val = k.val; omega

theorem out_row (q : Fin 128) : ((cfg0.win 7).blk t).view.emb (ix2 p q) = (ix2 r q : S100000x128.Idx) := by
  obtain ⟨-, -, -, -, -, -, -, -, -, -, -, -, -, -, e0, e1⟩ := idx_facts t
  refine funext fun a => Fin.ext ?_
  match a with
  | ⟨0, _⟩ => show win0_7.index t (0 : Fin 2) * 4000 + 1 * p.val = r.val; omega
  | ⟨1, _⟩ => show win0_7.index t (1 : Fin 2) * 128 + 1 * q.val = q.val; omega

end Rows

section Whole
variable (t : Fin cfg0.N)

theorem whole3_read (A : S128x128.Idx → EReal) (q k : Fin 128) :
    ((cfg0.win 3).blk t).view.read (Elt Ideal) A (ix2 q k) = A (ix2 q k) := by
  obtain ⟨-, -, -, -, -, -, e0, e1, -⟩ := idx_facts t
  show A (((cfg0.win 3).blk t).view.emb (ix2 q k)) = A (ix2 q k)
  refine congrArg A (funext fun a => Fin.ext ?_)
  match a with
  | ⟨0, _⟩ => show win0_3.index t (0 : Fin 2) * 128 + 1 * q.val = q.val; omega
  | ⟨1, _⟩ => show win0_3.index t (1 : Fin 2) * 128 + 1 * k.val = k.val; omega

theorem whole4_read (A : S128x128.Idx → EReal) (q k : Fin 128) :
    ((cfg0.win 4).blk t).view.read (Elt Ideal) A (ix2 q k) = A (ix2 q k) := by
  obtain ⟨-, -, -, -, -, -, -, -, e0, e1, -⟩ := idx_facts t
  show A (((cfg0.win 4).blk t).view.emb (ix2 q k)) = A (ix2 q k)
  refine congrArg A (funext fun a => Fin.ext ?_)
  match a with
  | ⟨0, _⟩ => show win0_4.index t (0 : Fin 2) * 128 + 1 * q.val = q.val; omega
  | ⟨1, _⟩ => show win0_4.index t (1 : Fin 2) * 128 + 1 * k.val = k.val; omega

theorem whole5_read (A : S128x128.Idx → EReal) (q k : Fin 128) :
    ((cfg0.win 5).blk t).view.read (Elt Ideal) A (ix2 q k) = A (ix2 q k) := by
  obtain ⟨-, -, -, -, -, -, -, -, -, -, e0, e1, -⟩ := idx_facts t
  show A (((cfg0.win 5).blk t).view.emb (ix2 q k)) = A (ix2 q k)
  refine congrArg A (funext fun a => Fin.ext ?_)
  match a with
  | ⟨0, _⟩ => show win0_5.index t (0 : Fin 2) * 128 + 1 * q.val = q.val; omega
  | ⟨1, _⟩ => show win0_5.index t (1 : Fin 2) * 128 + 1 * k.val = k.val; omega

theorem row6_read (A : S1x128.Idx → EReal) (q : Fin 128) :
    ((cfg0.win 6).blk t).view.read (Elt Ideal) A (ix2 (0 : Fin 1) q) = A (ix2 (0 : Fin 1) q) := by
  obtain ⟨-, -, -, -, -, -, -, -, -, -, -, -, e0, e1, -⟩ := idx_facts t
  show A (((cfg0.win 6).blk t).view.emb (ix2 (0 : Fin 1) q)) = A (ix2 (0 : Fin 1) q)
  refine congrArg A (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

end Whole

/-! ## The staged blocks of this run -/

section Staged
variable (c : Dev nD) (t : Fin cfg0.N) (p : Fin 4000) (r : Fin 100000) (hr : r.val = t.val * 4000 + p.val)

include hr in
theorem read_h (k : Fin 128) : iblk m c 0 t (ix2 p k) = m ((c : Thread nD τ).loc main_arg0) (ix2 r k) :=
  (rows0_read t p r hr (V m c main_arg0) k).trans (congrFun (V_main_arg0 m c) (ix2 r k))

include hr in
theorem read_m1 (k : Fin 128) : iblk m c 1 t (ix2 p k)
    = rawMean1 (m ((c : Thread nD τ).loc main_arg0)) (m ((c : Thread nD τ).loc main_arg1)) (m ((c : Thread nD τ).loc main_arg2)) (ix2 r k) :=
  (rows1_read t p r hr (V m c main_v18) k).trans (congrFun (raw1_eq m c) (ix2 r k))

include hr in
theorem read_m2 (k : Fin 128) : iblk m c 2 t (ix2 p k)
    = rawMean2 (m ((c : Thread nD τ).loc main_arg0)) (m ((c : Thread nD τ).loc main_arg3)) (m ((c : Thread nD τ).loc main_arg4)) (ix2 r k) :=
  (rows2_read t p r hr (V m c main_v37) k).trans (congrFun (raw2_eq m c) (ix2 r k))

theorem read_w1 (q k : Fin 128) : iblk m c 3 t (ix2 q k) = m ((c : Thread nD τ).loc main_arg5) (ix2 q k) :=
  (whole3_read t (V m c main_arg5) q k).trans (congrFun (V_main_arg5 m c) (ix2 q k))

theorem read_w2 (q k : Fin 128) : iblk m c 4 t (ix2 q k) = m ((c : Thread nD τ).loc main_arg6) (ix2 q k) :=
  (whole4_read t (V m c main_arg6) q k).trans (congrFun (V_main_arg6 m c) (ix2 q k))

theorem read_wl (q k : Fin 128) : iblk m c 5 t (ix2 q k) = m ((c : Thread nD τ).loc main_arg7) (ix2 q k) :=
  (whole5_read t (V m c main_arg7) q k).trans (congrFun (V_main_arg7 m c) (ix2 q k))

theorem read_bias (q : Fin 128) : iblk m c 6 t (ix2 (0 : Fin 1) q) = m ((c : Thread nD τ).loc main_arg8) (ix1 q) :=
  (row6_read t (V m c main_v38) q).trans (bias_apply m c q)

end Staged

end Cert.KernelIdeal.Whole

end
-- ==== Proof.KernelArray.lean ====
/-
  The fused kernel's output array, whole.

  Grid point `t` of 25 stages rows `4000·t … 4000·t + 3999` of `h` and of the two aggregated arrays, the three weight
  matrices and the bias row whole, and writes back rows `4000·t …` of the output. Element `(p, q)` of the block it
  writes is the body's value of the staged blocks; read through the windows these are `h`, the raw means and the
  weights at row `r = 4000·t + p`, so by the law joining the two arrangements the element is the layer's result at
  `(r, q)`. The 25 blocks tile the 100000 rows, so the array the run leaves is the layer's result everywhere.
-/
import proofs.«182217_j46222438039793_2_alg».proof.Proof.Payload
import proofs.«182217_j46222438039793_2_alg».proof.Proof.RefRead
import proofs.«182217_j46222438039793_2_alg».proof.Proof.BlockReads

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Mean Cert.KernelIdeal.Body Cert.KernelIdeal.Entry

variable (m : (ℓ : Loc nD τ sig) → Buf (Elt Ideal) ℓ) (ρ : Dev nD → PrngReg)

/-! ## One element of a written block -/

/-- The body's value of point `t`'s staged blocks at `(p, q)` is the layer's result at `(4000·t + p, q)`. -/
theorem element (hre : RealArgs m) (c : Dev nD) (t : Fin cfg0.N) (p : Fin 4000) (q : Fin 128) (r : Fin 100000)
    (hr : r.val = t.val * 4000 + p.val) :
    k0_pay1 (F := Ideal) (iblk m c 0 t) (iblk m c 1 t) (iblk m c 2 t) (iblk m c 3 t) (iblk m c 4 t) (iblk m c 5 t) (iblk m c 6 t) (ix2 p q)
      = result m c (ix2 r q) := by
  obtain ⟨⟨a0, h0⟩, ⟨a5, h5⟩, ⟨a6, h6⟩, ⟨a7, h7⟩⟩ := hre c
  rw [pay_apply]
  simp only [read_h m c t p r hr, read_m1 m c t p r hr, read_m2 m c t p r hr, read_w1 m c t, read_w2 m c t, read_wl m c t,
    read_bias m c t]
  unfold result
  rw [h0, h5, h6, h7]
  exact join a0 a5 a6 a7 _ _ _ _ _ r q

/-! ## From blocks to the array -/

/-- WHAT POINT `t` WRITES BACK is block `t` of the layer's result. -/
theorem flushed_eq (hre : RealArgs m) (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  have ht : t.val < 25 := t.isLt
  have hp : p.val < 4000 := p.isLt
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  rw [out_row t p ⟨t.val * 4000 + p.val, by omega⟩ rfl q]
  exact element m hre c t p q ⟨t.val * 4000 + p.val, by omega⟩ rfl

/-- An index of the array is in point `t`'s block iff each coordinate is in the block's range on its axis. -/
theorem mem_blk (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v39).slice (win0_7.rect t)).set ↔ _
  rw [View.set_slice_whole, Rect.mem_set_unit]
  exact Iff.rfl

/-- Every row is in SOME point's block: row `r` in that of point `r / 4000`. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 4000, by show (i 0).val / 4000 < 25; omega⟩
  obtain ⟨-, -, -, -, -, -, -, -, -, -, -, -, -, -, e0, e1⟩ := idx_facts t
  have ht : t.val = (i 0).val / 4000 := rfl
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- THE ARRAY after the run is the layer's result. -/
theorem final (hre : RealArgs m) (c : Dev nD) : (dats m 0 c).arrAt 7 cfg0.N = result m c :=
  (dats m 0 c).arrAt_eq_of_cover 7 (result m c) (fun t _ => flushed_eq m hre c t) cover

/-- The kernel's run re-posted: the output array at the layer's result, the arguments unchanged. -/
theorem run (hre : RealArgs m) : θ_run defs (onTc (τ := τ) (main (F := Ideal))) ⟨m, fun _ => 0, ρ⟩ fun r => ∀ c : Dev nD,
      r.2.mem ((c : Thread nD τ).loc main_v39) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m hre c), (h c).2⟩) (Value.run_blocks m ρ)

end Cert.KernelIdeal.Whole

end
-- ==== Proof.lean ====
/-
  A two-relation graph layer: each node's new features are
      relu ( h · Wlᵀ + bias + ½ · (mean₁ + mean₂) ),
  where meanⱼ averages, over the edges of type j that point to the node, the source node's features projected by Wⱼ.

  The reference projects `h` by W₁ and W₂ first and averages the projected rows. The kernel averages the rows of
  `h` itself on the host (the same gather along the sources, the same accumulating scatter along the targets, the
  same division by the in-degree clamped below by one) and projects the two averages, together with `h · Wlᵀ`, in one
  fused body per block of 4000 rows, with the bias, the half and the maximum with zero applied there.
  On the extended reals a change of float format is the identity and each contraction is an exact finite sum, so
  the two programs differ only in whether the projection by Wⱼ comes before or after the average. With the entries
  of `h` and of the weights real (the precondition), each side of
      Σ_k ((Σ_{e → r} h[src e, k]) / d r) · Wⱼ[q, k]   =   (Σ_{e → r} Σ_k h[src e, k] · Wⱼ[q, k]) / d r
  is a finite sum of real products and the two are equal by exchanging the sums; `d r ≥ 1` is a non-zero real.
  The modules: the law over abstract index types (LibGraphMean), the body at one element (Payload), the reference at
  one element and the law at this layer's shapes (RefMean, RefRead), the arrays the region finds (HostArrays), the
  precondition read (Finite), the output array whole (KernelArray). The frames and the two programs' runs are the
  generated modules'; `preserves` has nothing to state, the idealized kernel being the kernel's own text.
-/
import proofs.«182217_j46222438039793_2_alg».proof.Defs
import proofs.«182217_j46222438039793_2_alg».proof.Proof.Gen.Kernel
import proofs.«182217_j46222438039793_2_alg».proof.Proof.Gen.Kernel.Frame
import proofs.«182217_j46222438039793_2_alg».proof.Proof.Gen.KernelIdeal
import proofs.«182217_j46222438039793_2_alg».proof.Proof.Gen.KernelIdeal.Frame
import proofs.«182217_j46222438039793_2_alg».proof.Proof.Gen.KernelIdeal.Value
import proofs.«182217_j46222438039793_2_alg».proof.Proof.Gen.ReferenceIdeal
import proofs.«182217_j46222438039793_2_alg».proof.Proof.Gen.ReferenceIdeal.Run
import proofs.«182217_j46222438039793_2_alg».proof.Proof.Gen.ReferenceIdeal.Read
import proofs.«182217_j46222438039793_2_alg».proof.Proof.Gen.Pre_finite_inputs
import proofs.«182217_j46222438039793_2_alg».proof.Proof.Finite
import proofs.«182217_j46222438039793_2_alg».proof.Proof.KernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition the node array and the weight matrices hold real numbers on every core. -/
theorem real_args (m : (ℓ : Loc Cert.KernelIdeal.nD Cert.KernelIdeal.τ Cert.KernelIdeal.sig) → Buf (Elt Ideal) ℓ)
    (h : Cert.Pre_KernelIdeal m) : Cert.KernelIdeal.Whole.RealArgs m := fun c =>
  Cert.Pre_finite_inputs.Real.reals_of_pre _ _ _ _ _ _ _ _ _ (h c)

/-- Both idealized programs end with the layer's result: the kernel by its output array read whole, the reference by
    its run, whose composed term is that function of the arguments. -/
theorem algebraic : Cert.algebraic_KernelIdeal_ReferenceIdeal := by
  intro m ρ m' ρ' hpre hagree
  refine ⟨fun c => Cert.KernelIdeal.Whole.result m c, Cert.KernelIdeal.Whole.run m ρ (real_args m hpre), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v51_eq, e0, e1, e2, e3, e4, e5, e6, e7, e8]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
